-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S10001x256 : Shape := ⟨2, ![10001, 256]⟩
abbrev S_ : Shape := ⟨0, ![]⟩

class Facts : Prop where
  bcast_S_S10001x256 : S_.BroadcastsInDim S10001x256 (![] : Fin 0 → Fin S10001x256.rank)
  reducesTo_S10001x256_S_d0_1 : S10001x256.ReducesTo [0, 1] S_
  h_S_ : 0 < S_.numel

variable [Facts]

def fn {F : FTy → Type} [FloatOps F] (main_arg0 : IVec S128x64 32) (main_arg1 : FVec F S10001x256 .f32) : IVec S_ 1 :=
  let main_v0 : FVec F S10001x256 .f32 := Host.absf main_arg1
  let main_cst : FVec F S_ .f32 := constant S_ .f32 0x7F800000#32
  let main_v1 : FVec F S10001x256 .f32 := broadcastInDim S10001x256 ![] bcast_S_S10001x256 main_cst
  let main_v2 : IVec S10001x256 1 := cmpf .olt main_v0 main_v1
  let main_c : IVec S_ 1 := constantI S_ 1 1#1
  let main_v3 : IVec S_ 1 := (fun x v => Host.reduce IntOp.andi x v reducesTo_S10001x256_S_d0_1 h_S_) main_v2 main_c
  main_v3
-- ==== Kernel.lean ====
abbrev S128x64 : Shape := ⟨2, ![128, 64]⟩
abbrev S10001x256 : Shape := ⟨2, ![10001, 256]⟩
abbrev S8192x1 : Shape := ⟨2, ![8192, 1]⟩
abbrev S_ : Shape := ⟨0, ![]⟩
abbrev S10240x256 : Shape := ⟨2, ![10240, 256]⟩
abbrev S8192x256 : Shape := ⟨2, ![8192, 256]⟩
abbrev S1024x1 : Shape := ⟨2, ![1024, 1]⟩
abbrev S2048x256 : Shape := ⟨2, ![2048, 256]⟩
abbrev S1024x256 : Shape := ⟨2, ![1024, 256]⟩
abbrev S1024x2048 : Shape := ⟨2, ![1024, 2048]⟩
abbrev S128x64x256 : Shape := ⟨3, ![128, 64, 256]⟩

abbrev nBuf : Space → Nat
  | .hbm => 8
  | .vmem => 7
  | .smem => 0
  | _ => 0

abbrev bufTy : (tb : Table) → Fin (tcTables nBuf tb) → BufTy
  | .hbm, ⟨0, _⟩ => ⟨S128x64, .i32⟩
  | .hbm, ⟨1, _⟩ => ⟨S10001x256, .f32⟩
  | .hbm, ⟨2, _⟩ => ⟨S8192x1, .i32⟩
  | .hbm, ⟨3, _⟩ => ⟨S_, .i32⟩
  | .hbm, ⟨4, _⟩ => ⟨S_, .f32⟩
  | .hbm, ⟨5, _⟩ => ⟨S10240x256, .f32⟩
  | .hbm, ⟨6, _⟩ => ⟨S8192x256, .f32⟩
  | .hbm, ⟨7, _⟩ => ⟨S128x64x256, .f32⟩
  | .local _ .vmem, ⟨0, _⟩ => ⟨S1024x1, .i32⟩
  | .local _ .vmem, ⟨1, _⟩ => ⟨S1024x1, .i32⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S128x64_S8192x1 : S128x64.ShapeCasts S8192x1
  pads_S10001x256_S10240x256_02390_000 : S10001x256.Pads (![0, 0] : Fin 2 → Nat) ![239, 0] ![0, 0] S10240x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x2048_d1_w32 : S1024x2048.Iotas .tc 32 [1]
  broadcasts_S1024x1_S1024x2048 : S1024x1.Broadcasts S1024x2048
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x256_S128x64x256 : S8192x256.ShapeCasts S128x64x256
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S10240x256.size a
  hwx0_1 : ∀ i : grid0.Coords, EltTy.bits .f32 = 32 ∨ (Rect.block (s := S10240x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x64 : Shape := ⟨2, ![128, 64]⟩
abbrev S10001x256 : Shape := ⟨2, ![10001, 256]⟩
abbrev S128x64x1 : Shape := ⟨3, ![128, 64, 1]⟩
abbrev S1x1x10001 : Shape := ⟨3, ![1, 1, 10001]⟩
abbrev S128x64x10001 : Shape := ⟨3, ![128, 64, 10001]⟩
abbrev S128x64x256 : Shape := ⟨3, ![128, 64, 256]⟩

abbrev nBuf : Space → Nat
  | .hbm => 9
  | .vmem => 0
  | .smem => 0
  | _ => 0

abbrev bufTy : (tb : Table) → Fin (tcTables nBuf tb) → BufTy
  | .hbm, ⟨0, _⟩ => ⟨S128x64, .i32⟩
  | .hbm, ⟨1, _⟩ => ⟨S10001x256, .f32⟩
  | .hbm, ⟨2, _⟩ => ⟨S128x64x1, .i32⟩
  | .hbm, ⟨3, _⟩ => ⟨S1x1x10001, .i32⟩
  | .hbm, ⟨4, _⟩ => ⟨S128x64x10001, .i32⟩
  | .hbm, ⟨5, _⟩ => ⟨S128x64x10001, .i32⟩
  | .hbm, ⟨6, _⟩ => ⟨S128x64x10001, .i1⟩
  | .hbm, ⟨7, _⟩ => ⟨S128x64x10001, .f32⟩
  | .hbm, ⟨8, _⟩ => ⟨S128x64x256, .f32⟩
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S128x64_S128x64x1_0_1 : S128x64.BroadcastsInDim S128x64x1 (![0, 1] : Fin 2 → Fin S128x64x1.rank)
  bcast_S128x64x1_S128x64x10001_0_1_2 : S128x64x1.BroadcastsInDim S128x64x10001 (![0, 1, 2] : Fin 3 → Fin S128x64x10001.rank)
  bcast_S1x1x10001_S128x64x10001_0_1_2 : S1x1x10001.BroadcastsInDim S128x64x10001 (![0, 1, 2] : Fin 3 → Fin S128x64x10001.rank)
  dot_S128x64x10001_S10001x256_S128x64x256_2_0_01_1_n_n_wf : DotDims.WF S128x64x10001 S10001x256 S128x64x256 [2] [0] [0, 1] [1] [] []

variable [Facts₀]

def dot_S128x64x10001_S10001x256_S128x64x256_2_0_01_1_n_n : DotDims S128x64x10001 S10001x256 S128x64x256 where
  lhsContracting := [2]
  rhsContracting := [0]
  lhsNonContracting := [0, 1]
  rhsNonContracting := [1]
  lhsBatch := []
  rhsBatch := []
  wf := dot_S128x64x10001_S10001x256_S128x64x256_2_0_01_1_n_n_wf

class Facts : Prop extends Facts₀ where

variable [Facts]
-- ==== Proof.Pieces.lean ====
/-
  What one grid point leaves behind, as values.

  The kernel's body has three shapes over the grid: at the first vocabulary tile of a row block it zeroes the running
  block and then adds the tile's product to it; at a middle tile it adds the product to what the tile before left; at the
  last tile it does the same and then copies the running block to the output block. In each shape the running block ends
  as one whole store of the point's payload, whose loads read whole buffers; so what is left is that payload applied to
  the point's id column, its table tile, and either the zero block or the block left by the point before. The output
  block at a last tile is a read-back of the running block just stored: the same payload.
-/
import proofs.«135085_j68513318306322_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle tile: the running block ends at the payload over the block the point before left. -/
theorem sout_B (c : Dev nD) (i : grid0.Coords) (a2 : Memref sig .tc .vmem S1024x1 .i32) (h2 : a2.IsWhole)
    (a3 : Memref sig .tc .vmem S2048x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : ¬cond0_1 i)
    (x0 : Vec F S1024x1 .i32) (x1 : Vec F S2048x256 .f32) (xs0 : Vec F S1024x256 .f32) :
    sout0_B_0 c i a2 h2 a3 h3 a4 h4 a5 h5 hc0 hc1 x0 x1 xs0 = k0_pay2 i x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x1) hz,
    View.ld_unit_zero (S := S2048x256) hz, View.ld_unit_zero (S := S1024x256) hz]

/-- The first tile: the running block is zeroed, read back, and ends at the payload over the zero block. -/
theorem sout_A (c : Dev nD) (i : grid0.Coords) (a2 : Memref sig .tc .vmem S1024x1 .i32) (h2 : a2.IsWhole)
    (a3 : Memref sig .tc .vmem S2048x256 .f32) (h3 : a3.IsWhole) (a4 : Memref sig .tc .vmem S1024x256 .f32) (h4 : a4.IsWhole)
    (a5 : Memref sig .tc .vmem S1024x256 .f32) (h5 : a5.IsWhole) (hc0 : cond0_0 i) (hc1 : ¬cond0_1 i)
    (x0 : Vec F S1024x1 .i32) (x1 : Vec F S2048x256 .f32) :
    sout0_A_0 c i a2 h2 a3 h3 a4 h4 a5 h5 hc0 hc1 x0 x1 = k0_pay2 i x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x256) hz, View.readCov_unit_zero (S := S1024x256) _ hz]
  simp only [View.readAt_eq_ld, h2.read_unread, h3.read_unread, View.ld_unit_zero (S := S1024x1) hz,
    View.ld_unit_zero (S := S2048x256) hz]

/-- The last tile, the running block: as at a middle tile. -/
theorem sout_C (c : Dev nD) (i : grid0.Coords) (a2 : Memref sig .tc .vmem S1024x1 .i32) (h2 : a2.IsWhole)
    (a3 : Memref sig .tc .vmem S2048x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x1 .i32) (x1 : Vec F S2048x256 .f32) (xs0 : Vec F S1024x256 .f32) :
    sout0_C_0 c i a2 h2 a3 h3 a4 h4 a5 h5 hc0 hc1 x0 x1 xs0 = k0_pay2 i x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x1) hz,
    View.ld_unit_zero (S := S2048x256) hz, View.ld_unit_zero (S := S1024x256) hz]

/-- The last tile, the output block: the running block just stored, read back whole. -/
theorem out_C (c : Dev nD) (i : grid0.Coords) (a2 : Memref sig .tc .vmem S1024x1 .i32) (h2 : a2.IsWhole)
    (a3 : Memref sig .tc .vmem S2048x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x1 .i32) (x1 : Vec F S2048x256 .f32) (xs0 : Vec F S1024x256 .f32) :
    out0_C_2 c i a2 h2 a3 h3 a4 h4 a5 h5 hc0 hc1 x0 x1 xs0 = k0_pay2 i x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x256) _ hz]
  simp only [View.readAt_eq_ld, h2.read_unread, h3.read_unread, h5.read_unread, View.ld_unit_zero (S := S1024x1) hz,
    View.ld_unit_zero (S := S2048x256) hz, View.ld_unit_zero (S := S1024x256) hz]

end Cert.KernelIdeal.Pieces

end
-- ==== Proof.Spec.lean ====
/-
  The mathematics of the embedding lookup, with no program in sight.

  A token id selects one row of a table `W` of 10001 rows and 256 columns; an id that names no row selects nothing and
  the result is zero. Both programs compute this by summing, over candidate rows `v`, the product of a one-hot entry
  `[id = v]` with `W v d`: at most one term of such a sum is kept. Over the extended reals `0 * x = 0` for every
  `x`, infinite or not, so the discarded terms vanish whatever the table holds.
-/
import Idealize.ShloMosaic.PureOps.Ideal
import Idealize.ShloMosaic.PureOps.Ideal.Laws
import Idealize.ShloMosaic.Lib.ValueIdx

noncomputable section

namespace Cert.Embed

open Idealize.ShloMosaic Idealize.ShloMosaic.ValueIdx

/-- Row `v` of the table at column `d`; zero when `v` is past the last row. -/
def row (W : (⟨2, ![10001, 256]⟩ : Shape).Idx → EReal) (d : Fin 256) (v : ℕ) : EReal :=
  if h : v < 10001 then W (ix2 ⟨v, h⟩ d) else 0

theorem row_of_lt (W : (⟨2, ![10001, 256]⟩ : Shape).Idx → EReal) (d : Fin 256) (v : ℕ) (h : v < 10001) :
    row W d v = W (ix2 ⟨v, h⟩ d) := dif_pos h

theorem row_of_ge (W : (⟨2, ![10001, 256]⟩ : Shape).Idx → EReal) (d : Fin 256) (v : ℕ) (h : 10001 ≤ v) :
    row W d v = 0 := dif_neg (by omega)

/-- The lookup: entry `(b, s, d)` is row `ids (b, s)` of the table at column `d`, the id read as an unsigned word
    (a negative id is then a number past every row). -/
def lookup (ids : (⟨2, ![128, 64]⟩ : Shape).Idx → BitVec 32) (W : (⟨2, ![10001, 256]⟩ : Shape).Idx → EReal) :
    (⟨3, ![128, 64, 256]⟩ : Shape).Idx → EReal :=
  fun i => row W (i 2) (ids (ix2 (i 0) (i 1))).toNat

/-- The id at position `j` of the flattened column of 8192 ids, read unsigned (and `0` past the column's end, where it
    is never read). -/
def idAt (ids : (⟨2, ![8192, 1]⟩ : Shape).Idx → BitVec 32) (j : ℕ) : ℕ :=
  if h : j < 8192 then (ids (ix2 ⟨j, h⟩ (0 : Fin 1))).toNat else 0

theorem idAt_of_lt (ids : (⟨2, ![8192, 1]⟩ : Shape).Idx → BitVec 32) (j : ℕ) (h : j < 8192) :
    idAt ids j = (ids (ix2 ⟨j, h⟩ (0 : Fin 1))).toNat := dif_pos h

/-- The flattened result: entry `(j, d)` is the row named by the `j`-th id, at column `d`. -/
def flat (ids : (⟨2, ![8192, 1]⟩ : Shape).Idx → BitVec 32) (W : (⟨2, ![10001, 256]⟩ : Shape).Idx → EReal) :
    (⟨2, ![8192, 256]⟩ : Shape).Idx → EReal :=
  fun j => row W (j 1) (idAt ids (j 0).val)

/-- Selecting among all 10240 candidate rows of the zero-extended table is selecting among the table's own rows: a
    row past the table's end is zero either way. -/
theorem select_all (W : (⟨2, ![10001, 256]⟩ : Shape).Idx → EReal) (d : Fin 256) (id : ℕ) :
    (if id < 2048 * (4 + 1) then row W d id else 0) = row W d id := by
  by_cases h : id < 2048 * (4 + 1)
  · rw [if_pos h]
  · rw [if_neg h, row_of_ge W d id (by omega)]

/-- A one-hot sum over the `n` rows starting at `off` keeps the row `id` when it is one of them, and nothing
    otherwise. -/
theorem sum_onehot (n off id : ℕ) (g : ℕ → EReal) :
    ∑ k : Fin n, (if id = off + k.val then (1 : EReal) else 0) * g (off + k.val)
      = if off ≤ id ∧ id < off + n then g id else 0 := by
  by_cases h : off ≤ id ∧ id < off + n
  · rw [if_pos h, Finset.sum_eq_single (⟨id - off, by omega⟩ : Fin n)]
    · have e : off + (id - off) = id := by omega
      show (if id = off + (id - off) then (1 : EReal) else 0) * g (off + (id - off)) = g id
      rw [e, if_pos rfl, one_mul]
    · intro b _ hb
      have : ¬id = off + b.val := fun hid => hb (Fin.ext (by show b.val = id - off; omega))
      rw [if_neg this, zero_mul]
    · intro hne; exact absurd (Finset.mem_univ _) hne
  · rw [if_neg h]
    refine Finset.sum_eq_zero fun k _ => ?_
    have hk := k.isLt
    rw [if_neg (by omega), zero_mul]

/-- Adding the rows `[lo, lo + n)` to what the rows below `lo` selected gives what the rows below `lo + n` select. -/
theorem select_step (lo n id : ℕ) (x : EReal) :
    (if id < lo then x else 0) + (if lo ≤ id ∧ id < lo + n then x else 0) = if id < lo + n then x else 0 := by
  by_cases h1 : id < lo
  · rw [if_pos h1, if_neg (by omega), if_pos (by omega), add_zero]
  · rw [if_neg h1, zero_add]
    by_cases h2 : id < lo + n
    · rw [if_pos ⟨by omega, h2⟩, if_pos h2]
    · rw [if_neg (by omega), if_neg h2]

/-- The one-hot entry as a comparison word widened to 32 bits and read as a signed integer: `1` or `0`. -/
theorem onehot_signed (a b : BitVec 32) :
    ((((IntOp.cmpi .eq a b).setWidth 32).toInt : ℝ) : EReal) = if a = b then 1 else 0 := by
  by_cases h : a = b
  · subst h
    simp [IntOp.cmpi]
  · have hb : (a == b) = false := by simpa using h
    simp [IntOp.cmpi, hb, h]

/-- The same entry as the comparison word read as an unsigned integer. -/
theorem onehot_unsigned (a b : BitVec 32) :
    (((IntOp.cmpi .eq a b).toNat : ℝ) : EReal) = if a = b then 1 else 0 := by
  by_cases h : a = b
  · subst h
    simp [IntOp.cmpi]
  · have hb : (a == b) = false := by simpa using h
    simp [IntOp.cmpi, hb, h]

/-- A 32-bit word equals the word of a small number exactly when its unsigned value is that number. -/
theorem eq_ofNat_iff (a : BitVec 32) (n : ℕ) (hn : n < 2 ^ 32) : a = BitVec.ofNat 32 n ↔ a.toNat = n := by
  constructor
  · intro h; rw [h, BitVec.toNat_ofNat, Nat.mod_eq_of_lt hn]
  · intro h; apply BitVec.eq_of_toNat_eq; rw [h, BitVec.toNat_ofNat, Nat.mod_eq_of_lt hn]

/-- Lane `k` of vocabulary tile `vi` carries the candidate row `2048 * vi + k`: the lane number plus the tile's
    offset, with no wrap-around at these sizes. -/
theorem tile_word (k vi : ℕ) (hk : k < 2048) (hv : vi < 5) :
    IntOp.addi (BitVec.ofNat 32 k) (Scalar.muli (BitVec.ofNat 32 vi) 2048#32) = BitVec.ofNat 32 (2048 * vi + k) := by
  apply BitVec.eq_of_toNat_eq
  simp only [IntOp.addi, Scalar.muli, IntOp.muli, BitVec.toNat_add, BitVec.toNat_mul, BitVec.toNat_ofNat]
  omega

end Cert.Embed

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  One grid point's arithmetic, read at an entry.

  At a grid point the kernel holds a block of 1024 token ids (a column), a tile of 2048 rows of the zero-extended table,
  and the running result block. It builds the 1024 × 2048 one-hot tile `[id r = 2048 * vi + k]` (`vi` the tile's number,
  `k` the lane), multiplies it into the table tile, and adds the product to the running block. At entry `(r, d)` that
  is the running value plus the sum over the 2048 lanes of the one-hot entry times the tile's entry `(k, d)`.
-/
import proofs.«135085_j68513318306322_1_alg».proof.Proof.Gen.KernelIdeal.Skeleton
import proofs.«135085_j68513318306322_1_alg».proof.Proof.Spec
import proofs.«135085_j68513318306322_1_alg».proof.Proof.LibKeepdims
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.Embed

/-- The matrix product's operand indices: at output `(r, d)` and contraction index `q` the left operand is read at row
    `r` and the right operand at column `d`. -/
theorem lhs_row (j : S1024x256.Idx) (q : dot_S1024x2048_S2048x256_S1024x256_1_0_0_1_n_n.contr.Idx) :
    (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem rhs_col (j : S1024x256.Idx) (q : dot_S1024x2048_S2048x256_S1024x256_1_0_0_1_n_n.contr.Idx) :
    (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The product of a 1024 × 2048 tile and a 2048 × 256 tile into the zero block, at entry `(r, d)`: the sum over the
    2048 lanes of the products of the two entries. -/
theorem matmul_zero_apply (l : FVec Ideal S1024x2048 .bf16) (rr : FVec Ideal S2048x256 .bf16) (r : Fin 1024) (d : Fin 256) :
    matmul dot_S1024x2048_S2048x256_S1024x256_1_0_0_1_n_n none l rr (constant (F := Ideal) S1024x256 .f32 0x00000000#32) (ix2 r d)
      = ∑ k : Fin 2048, l (ix2 r k) * rr (ix2 k d) := by
  simp only [matmul]
  rw [Ideal.matmul_constant_zero_apply,
    ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r d) ((contrEquiv1 dot_S1024x2048_S2048x256_S1024x256_1_0_0_1_n_n 2048 rfl rfl).symm k) = ix2 r k :=
    funext fun a => Fin.ext (by
      match a with
      | ⟨0, _⟩ => exact lhs_row _ _
      | ⟨1, _⟩ => exact (dot_S1024x2048_S2048x256_S1024x256_1_0_0_1_n_n.lhsIdx_val_of_single rfl _ _).trans hk)
  have er : dot_S1024x2048_S2048x256_S1024x256_1_0_0_1_n_n.rhsIdx (ix2 r d) ((contrEquiv1 dot_S1024x2048_S2048x256_S1024x256_1_0_0_1_n_n 2048 rfl rfl).symm k) = ix2 k d :=
    funext fun a => Fin.ext (by
      match a with
      | ⟨0, _⟩ => exact (dot_S1024x2048_S2048x256_S1024x256_1_0_0_1_n_n.rhsIdx_val_of_single rfl _ _).trans hk
      | ⟨1, _⟩ => exact rhs_col _ _)
  rw [el, er]

/-- Entry `(r, k)` of the one-hot tile number `vi`: one exactly when the id of row `r`, read unsigned, is the candidate
    row `2048 * vi + k`. The column of ids is repeated along the lanes, the lane number is offset by the tile's start,
    and the comparison word is widened and converted to a float (a change of float format changes nothing here). -/
theorem onehot_apply (vi : ℕ) (hv : vi < 5) (x0 : IVec S1024x1 32) (hb : S1024x1.Broadcasts S1024x2048)
    (hi : S1024x2048.Iotas .tc 32 [1]) (hlt : 1 < 32) (hbits : FTy.bits .bf16 < FTy.bits .f32) (r : Fin 1024) (k : Fin 2048) :
    (truncf (F := Ideal) .bf16 (sitofp (F := Ideal) .f32 (extui 32 (cmpi .eq (broadcastTo S1024x2048 x0 hb)
        (addi (iota .tc S1024x2048 32 [1] hi) (broadcast S1024x2048 (Scalar.muli (BitVec.ofNat 32 vi) 2048#32)))) hlt)) hbits) (ix2 r k)
      = if (x0 (ix2 r (0 : Fin 1))).toNat = 2048 * vi + k.val then 1 else 0 := by
  show ((((IntOp.cmpi .eq (broadcastTo S1024x2048 x0 hb (ix2 r k))
      (IntOp.addi (iota .tc S1024x2048 32 [1] hi (ix2 r k)) (Scalar.muli (BitVec.ofNat 32 vi) 2048#32))).setWidth 32).toInt : ℝ) : EReal) = _
  rw [Cert.Keepdims.broadcastTo_a1_ab_apply, iota_single_apply]
  show ((((IntOp.cmpi .eq (x0 (ix2 r (0 : Fin 1)))
      (IntOp.addi (BitVec.ofNat 32 k.val) (Scalar.muli (BitVec.ofNat 32 vi) 2048#32))).setWidth 32).toInt : ℝ) : EReal) = _
  rw [tile_word k.val vi k.isLt hv, onehot_signed]
  exact if_congr (eq_ofNat_iff _ _ (by have := k.isLt; omega)) rfl rfl

/-- The point's payload at entry `(r, d)`: the running value there, plus the one-hot row of `r` against column `d` of
    the table tile. -/
theorem pay2_apply (i : grid0.Coords) (x0 : Vec Ideal S1024x1 .i32) (x1 : Vec Ideal S2048x256 .f32)
    (xs : Vec Ideal S1024x256 .f32) (r : Fin 1024) (d : Fin 256) :
    k0_pay2 (F := Ideal) i x0 x1 xs (ix2 r d)
      = xs (ix2 r d) + ∑ k : Fin 2048,
          (if (x0 (ix2 r (0 : Fin 1))).toNat = 2048 * (i 1).val + k.val then (1 : EReal) else 0) * x1 (ix2 k d) := by
  have hv : (i 1).val < 5 := (i 1).isLt
  unfold k0_pay2
  simp only [shapeCast_self]
  refine (addf_apply _ _ _).trans ?_
  rw [matmul_zero_apply]
  refine congrArg (xs (ix2 r d) + ·) (Finset.sum_congr rfl fun k _ => ?_)
  rw [onehot_apply (i 1).val hv]
  rfl

/-- One tile's step at an entry. Suppose the id of row `r` is `id`, the table tile's column `d` holds the values `g` of
    the candidate rows `2048 * vi ..< 2048 * vi + 2048`, and the running value is what the candidate rows below `2048 * vi`
    selected. Then the payload is what the candidate rows below `2048 * (vi + 1)` select. -/
theorem step_entry (i : grid0.Coords) (x0 : Vec Ideal S1024x1 .i32) (x1 : Vec Ideal S2048x256 .f32)
    (xs : Vec Ideal S1024x256 .f32) (r : Fin 1024) (d : Fin 256) (vi id : ℕ) (g : ℕ → EReal)
    (hi : (i 1).val = vi) (h0 : (x0 (ix2 r (0 : Fin 1))).toNat = id)
    (h1 : ∀ k : Fin 2048, x1 (ix2 k d) = g (2048 * vi + k.val))
    (hxs : xs (ix2 r d) = if id < 2048 * vi then g id else 0) :
    k0_pay2 (F := Ideal) i x0 x1 xs (ix2 r d) = if id < 2048 * (vi + 1) then g id else 0 := by
  rw [pay2_apply, hxs, hi, h0]
  have e : ∑ k : Fin 2048, (if id = 2048 * vi + k.val then (1 : EReal) else 0) * x1 (ix2 k d)
      = ∑ k : Fin 2048, (if id = 2048 * vi + k.val then (1 : EReal) else 0) * g (2048 * vi + k.val) :=
    Finset.sum_congr rfl fun k _ => by rw [h1 k]
  rw [e, sum_onehot 2048 (2048 * vi) id g, select_step (2048 * vi) 2048 id (g id)]
  rfl

/-- The reset's payload is the zero block. -/
theorem pay1_apply (j : S1024x256.Idx) : k0_pay1 (F := Ideal) j = 0 := by
  unfold k0_pay1
  simp only [shapeCast_self]
  show Ideal.ofBits .f32 0x00000000#32 = 0
  exact Ideal.ofBits_zero_f32

end Cert.KernelIdeal.Payload

end
-- ==== Proof.Blocks.lean ====
/-
  What the kernel's windows show it at a grid point.

  The grid is 8 row blocks by 5 vocabulary tiles, walked row block by row block; point `t` is row block `t / 5`, tile
  `t % 5`. Before the kernel starts, the ids are re-laid from 128 × 64 to a column of 8192 (same row-major order), and
  the table is extended from 10001 to 10240 rows with zeros. The id window at point `t` shows rows
  `1024 * (t / 5) ..` of the column; the table window shows rows `2048 * (t % 5) ..` of the extended table.
-/
import proofs.«135085_j68513318306322_1_alg».proof.Proof.Gen.KernelIdeal.Frame
import proofs.«135085_j68513318306322_1_alg».proof.Proof.Spec
import Idealize.ShloMosaic.Lib.Pipeline.Value
import Idealize.ShloMosaic.Lib.KernelVsHost
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Embed

/-- The three index maps and the tile coordinate, over the grid: the id and output windows move with the row block
    `t / 5`, the table window with the tile `t % 5`; no window moves along its second axis. -/
theorem idx_facts : ∀ t : Fin cfg0.N, win0_0.index t (0 : Fin 2) = t.val / 5 ∧ win0_0.index t (1 : Fin 2) = 0
    ∧ win0_1.index t (0 : Fin 2) = t.val % 5 ∧ win0_1.index t (1 : Fin 2) = 0
    ∧ win0_2.index t (0 : Fin 2) = t.val / 5 ∧ win0_2.index t (1 : Fin 2) = 0
    ∧ (grid0.coords t 1).val = t.val % 5 :=
  (by decide +kernel : ∀ t : Fin grid0.N, win0_0.index t (0 : Fin 2) = t.val / 5 ∧ win0_0.index t (1 : Fin 2) = 0
    ∧ win0_1.index t (0 : Fin 2) = t.val % 5 ∧ win0_1.index t (1 : Fin 2) = 0
    ∧ win0_2.index t (0 : Fin 2) = t.val / 5 ∧ win0_2.index t (1 : Fin 2) = 0
    ∧ (grid0.coords t 1).val = t.val % 5)

theorem lt40 (t : Fin cfg0.N) : t.val < 40 := lt_of_lt_of_eq t.isLt (show cfg0.N = 40 from N_0)

/-- The table extended with zero rows, at entry `(v, d)`: the table's row `v`, or zero past its end. -/
theorem pad_entry (W : S10001x256.Idx → EReal) (hp : S10001x256.Pads ![0, 0] ![239, 0] ![0, 0] S10240x256)
    (hu : 0 < S_.numel) (v : ℕ) (hv : v < 10240) (d : Fin 256) :
    pad S10240x256 ![0, 0] ![239, 0] ![0, 0] W (sitofp (F := Ideal) .f32 (constantI S_ 32 0#32)) hp hu (ix2 ⟨v, hv⟩ d)
      = row W d v := by
  by_cases h : v < 10001
  · rw [row_of_lt W d v h]
    exact pad_apply_of_inside _ _ _ W _ hp hu _ (ix2 ⟨v, h⟩ d) (fun a => by
      match a with
      | ⟨0, _⟩ => show v = 0 + v * (0 + 1); omega
      | ⟨1, _⟩ => show d.val = 0 + d.val * (0 + 1); omega)
  · rw [row_of_ge W d v (by omega)]
    refine (pad_apply_of_not_inside _ _ _ W _ hp hu _ (0 : Fin 2) (fun hh => ?_)).trans ?_
    · have h3 : (v - 0) / (0 + 1) < 10001 := hh.2.2
      simp at h3
      omega
    · show (((0#32 : BitVec 32).toInt : ℝ) : EReal) = 0
      simp

section
variable {F : FTy → Type} [FloatOps F]
variable (m : (ℓ : Loc nD τ sig) → Buf (Elt F) ℓ)

/-- The id column the kernel finds: the 128 × 64 ids re-laid as 8192 × 1. -/
theorem V_ids (c : Dev nD) : (V m c main_v0 : S8192x1.Idx → BitVec 32)
    = shapeCast S8192x1 (m ((c : Thread nD τ).loc main_arg0)) shapeCasts_S128x64_S8192x1 := by
  dsimp only [Gen.V, Gen.V0]
  simp only [Gen.hostOps0, Gen.hostOps0_1, List.flatten_cons, List.flatten_nil, List.append_nil, List.cons_append,
    List.nil_append]
  after_results
  rfl

/-- The table the kernel finds: the argument extended to 10240 rows by the converted integer zero. -/
theorem V_tab (c : Dev nD) : (V m c main_v1 : S10240x256.Idx → F .f32)
    = pad S10240x256 ![0, 0] ![239, 0] ![0, 0] (m ((c : Thread nD τ).loc main_arg1))
        (sitofp (F := F) .f32 (constantI S_ 32 0#32)) pads_S10001x256_S10240x256_02390_000 h_S_ := by
  dsimp only [Gen.V, Gen.V0]
  simp only [Gen.hostOps0, Gen.hostOps0_1, List.flatten_cons, List.flatten_nil, List.append_nil, List.cons_append,
    List.nil_append]
  after_results
  rfl

/-- The id window at point `t`, entry `(r, ·)`: position `1024 * (t / 5) + r` of the column. -/
theorem iblk_ids (c : Dev nD) (t : Fin cfg0.N) (r : Fin 1024) (u : Fin 1) :
    (iblk m c 0 t : Vec F S1024x1 .i32) (ix2 r u)
      = (V m c main_v0 : S8192x1.Idx → BitVec 32)
          (ix2 (⟨1024 * (t.val / 5) + r.val, by have := lt40 t; have := r.isLt; omega⟩ : Fin 8192) (0 : Fin 1)) := by
  have hi := idx_facts t
  unfold iblk
  rw [View.read_apply]
  show V m c main_v0 _ = V m c main_v0 _
  congr 1
  funext a
  apply Fin.ext
  match a with
  | ⟨0, _⟩ => show win0_0.index t 0 * 1024 + 1 * r.val = 1024 * (t.val / 5) + r.val; rw [hi.1]; omega
  | ⟨1, _⟩ => show win0_0.index t 1 * 1 + 1 * u.val = 0; rw [hi.2.1]; omega

/-- The table window at point `t`, entry `(k, d)`: row `2048 * (t % 5) + k` of the extended table. -/
theorem iblk_tab (c : Dev nD) (t : Fin cfg0.N) (k : Fin 2048) (d : Fin 256) :
    (iblk m c 1 t : Vec F S2048x256 .f32) (ix2 k d)
      = (V m c main_v1 : S10240x256.Idx → F .f32)
          (ix2 (⟨2048 * (t.val % 5) + k.val, by have := k.isLt; omega⟩ : Fin 10240) d) := by
  have hi := idx_facts t
  unfold iblk
  rw [View.read_apply]
  show V m c main_v1 _ = V m c main_v1 _
  congr 1
  funext a
  apply Fin.ext
  match a with
  | ⟨0, _⟩ => show win0_1.index t 0 * 2048 + 1 * k.val = 2048 * (t.val % 5) + k.val; rw [hi.2.2.1]; omega
  | ⟨1, _⟩ => show win0_1.index t 1 * 256 + 1 * d.val = d.val; rw [hi.2.2.2.1]; omega

end

/-- At the exact values: the id the kernel sees in row `r` at point `t`, read unsigned. -/
theorem ids_entry (m : (ℓ : Loc nD τ sig) → Buf (Elt Ideal) ℓ) (c : Dev nD) (t : Fin cfg0.N) (r : Fin 1024) :
    ((iblk m c 0 t : Vec Ideal S1024x1 .i32) (ix2 r (0 : Fin 1))).toNat
      = idAt (V m c main_v0 : S8192x1.Idx → BitVec 32) (1024 * (t.val / 5) + r.val) := by
  rw [iblk_ids m c t r 0, idAt_of_lt _ _ (by have := lt40 t; have := r.isLt; omega)]

/-- At the exact values: the table tile's entry `(k, d)` at point `t` is row `2048 * (t % 5) + k` of the table, zero
    past the table's end. -/
theorem tab_entry (m : (ℓ : Loc nD τ sig) → Buf (Elt Ideal) ℓ) (c : Dev nD) (t : Fin cfg0.N) (k : Fin 2048) (d : Fin 256) :
    (iblk m c 1 t : Vec Ideal S2048x256 .f32) (ix2 k d)
      = row (m ((c : Thread nD τ).loc main_arg1)) d (2048 * (t.val % 5) + k.val) := by
  rw [iblk_tab m c t k d, V_tab m c]
  exact pad_entry _ _ _ _ _ d

end Cert.KernelIdeal.Blocks

end
-- ==== Proof.Accum.lean ====
/-
  The running block, tile after tile.

  Fix a row block and one of its rows, with id `id`, and a column `d`. After the tiles `0 .. vi` of the row block the
  running value at that entry is what the candidate rows below `2048 * (vi + 1)` select: row `id` of the table at column
  `d` when `id` is among them, zero when it is not. The first tile starts from zero (nothing below row 0 is selected);
  each later tile adds its own 2048 candidates to what the tile before left. After the fifth tile all 10240 candidates
  have been seen, which selects row `id` of the zero-extended table; that value is copied to the output block.
-/
import proofs.«135085_j68513318306322_1_alg».proof.Proof.Gen.KernelIdeal.Frame
import proofs.«135085_j68513318306322_1_alg».proof.Proof.Pieces
import proofs.«135085_j68513318306322_1_alg».proof.Proof.Payload
import proofs.«135085_j68513318306322_1_alg».proof.Proof.Blocks

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.Embed Cert.KernelIdeal.Blocks

variable (m : (ℓ : Loc nD τ sig) → Buf (Elt Ideal) ℓ)

/-- The id of row `r` of the row block that point `n` works on. -/
def idOf (c : Dev nD) (n : ℕ) (r : Fin 1024) : ℕ :=
  idAt (V m c main_v0 : S8192x1.Idx → BitVec 32) (1024 * (n / 5) + r.val)

/-- What the candidate rows seen up to and including point `n`'s tile select, for row `r` and column `d`. -/
def selAt (c : Dev nD) (n : ℕ) (r : Fin 1024) (d : Fin 256) : EReal :=
  if idOf m c n r < 2048 * (n % 5 + 1) then row (m ((c : Thread nD τ).loc main_arg1)) d (idOf m c n r) else 0

/-- Within a row block, the point before saw the candidate rows below this point's tile. -/
theorem selAt_pred (c : Dev nD) (n : ℕ) (hn : ¬n % 5 = 0) (r : Fin 1024) (d : Fin 256) :
    selAt m c (n - 1) r d
      = if idOf m c n r < 2048 * (n % 5) then row (m ((c : Thread nD τ).loc main_arg1)) d (idOf m c n r) else 0 := by
  unfold selAt idOf
  rw [show (n - 1) / 5 = n / 5 by omega, show (n - 1) % 5 + 1 = n % 5 by omega]

/-- One point: from a running value that is what the rows below this tile select, the payload over the point's two
    windows is what the rows up to this tile's end select. -/
theorem point (c : Dev nD) (t : Fin cfg0.N) (xs : Vec Ideal S1024x256 .f32) (r : Fin 1024) (d : Fin 256)
    (hxs : xs (ix2 r d) = if idOf m c t.val r < 2048 * (t.val % 5)
      then row (m ((c : Thread nD τ).loc main_arg1)) d (idOf m c t.val r) else 0) :
    k0_pay2 (F := Ideal) (grid0.coords t) (iblk m c 0 t) (iblk m c 1 t) xs (ix2 r d) = selAt m c t.val r d :=
  Payload.step_entry (grid0.coords t) (iblk m c 0 t) (iblk m c 1 t) xs r d (t.val % 5) (idOf m c t.val r)
    (row (m ((c : Thread nD τ).loc main_arg1)) d) (idx_facts t).2.2.2.2.2.2 (ids_entry m c t r)
    (fun k => tab_entry m c t k d) hxs

/-- Nothing is selected below row 0. -/
theorem none_below (id : ℕ) (n : ℕ) (hn : n % 5 = 0) (x : EReal) : (0 : EReal) = if id < 2048 * (n % 5) then x else 0 := by
  rw [hn, if_neg (by omega)]

/-- The running block after point `n`, entry by entry. -/
theorem scratch_eq (c : Dev nD) : ∀ (n : ℕ) (h : n < cfg0.N) (r : Fin 1024) (d : Fin 256),
    (outsAt0 m c n h).2 (ix2 r d) = selAt m c n r d
  | 0, h, r, d => by
    rw [outsAt0_A m c ⟨0, h⟩ rfl (by show ¬(0 : ℕ) % 5 = 4; decide)]
    dsimp only
    rw [Pieces.sout_A]
    exact point m c ⟨0, h⟩ _ r d ((Payload.pay1_apply _).trans (none_below _ 0 rfl _))
  | n + 1, h, r, d => by
    have hN : n + 1 < 40 := lt_of_lt_of_eq h (show cfg0.N = 40 from N_0)
    by_cases h0 : (n + 1) % 5 = 0
    · have h1 : ¬(n + 1) % 5 = 4 := by omega
      rw [outsAt0_A m c ⟨n + 1, h⟩ h0 h1]
      dsimp only
      rw [Pieces.sout_A]
      exact point m c ⟨n + 1, h⟩ _ r d ((Payload.pay1_apply _).trans (none_below _ (n + 1) h0 _))
    · by_cases h1 : (n + 1) % 5 = 4
      · rw [outsAt0_C m c ⟨n + 1, h⟩ h0 h1]
        dsimp only
        rw [Pieces.sout_C]
        exact point m c ⟨n + 1, h⟩ _ r d ((scratch_eq c n _ r d).trans (selAt_pred m c (n + 1) h0 r d))
      · rw [outsAt0_B m c ⟨n + 1, h⟩ h0 h1]
        dsimp only
        rw [Pieces.sout_B]
        exact point m c ⟨n + 1, h⟩ _ r d ((scratch_eq c n _ r d).trans (selAt_pred m c (n + 1) h0 r d))

/-- The output block at a row block's last tile, entry by entry: the row the id names, zero when it names none. -/
theorem out_eq (c : Dev nD) (t : Fin cfg0.N) (h1 : t.val % 5 = 4) (r : Fin 1024) (d : Fin 256) :
    (outsAt0 m c t.val t.isLt).1 (ix2 r d) = row (m ((c : Thread nD τ).loc main_arg1)) d (idOf m c t.val r) := by
  have h0 : ¬t.val % 5 = 0 := by omega
  rw [outsAt0_C m c t h0 h1]
  dsimp only
  rw [Pieces.out_C]
  refine (point m c t _ r d ((scratch_eq m c (t.val - 1) _ r d).trans (selAt_pred m c t.val h0 r d))).trans ?_
  unfold selAt
  rw [h1]
  exact select_all _ d _

end Cert.KernelIdeal.Accum

end
-- ==== Proof.Final.lean ====
/-
  From the output blocks to the result.

  Only the last tile of each row block writes its output block back, so eight of the forty points write, one per row
  block, and the eight blocks of 1024 rows tile the 8192 × 256 array: row `j` is written by the last tile of row block
  `j / 1024`. The array therefore ends as the flattened lookup. After the kernel the array is re-laid as
  128 × 64 × 256 in the same row-major order, which undoes the flattening of the ids: entry `(b, s, d)` is row
  `ids (b, s)` of the table at column `d`.
-/
import proofs.«135085_j68513318306322_1_alg».proof.Proof.Gen.KernelIdeal.Frame
import proofs.«135085_j68513318306322_1_alg».proof.Proof.Accum
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Embed Cert.KernelIdeal.Blocks Cert.KernelIdeal.Accum

variable (m : (ℓ : Loc nD τ sig) → Buf (Elt Ideal) ℓ) (ρ : Dev nD → PrngReg)

/-- The flattened lookup over the id column and the table as the kernel finds them. -/
def flatOf (c : Dev nD) : S8192x256.Idx → EReal :=
  flat (V m c main_v0 : S8192x1.Idx → BitVec 32) (m ((c : Thread nD τ).loc main_arg1))

/-- What a writing point writes back is its block of the flattened lookup. -/
theorem flushed_eq (c : Dev nD) (t : Fin cfg0.N) (hf : (cfg0.win 2).flush t = true) :
    (dats m 0 c).flushed 2 t = ((cfg0.win 2).blk t).view.read (Elt Ideal) (flatOf m c) := by
  have h4 : t.val % 5 = 4 := (flush0_2 t).mp hf
  have hi := idx_facts t
  have hN := lt40 t
  show (cfg0.win 2).cut (grid0.coords t) ((dats m 0 c).after 2 t) = _
  rw [after0_2]
  funext j
  obtain ⟨r, d, rfl⟩ : ∃ (r : Fin 1024) (d : Fin 256), j = ix2 r d := ⟨j 0, j 1, eq_ix2 j⟩
  refine (out_eq m c t h4 r d).trans ?_
  have he : ((cfg0.win 2).blk t).view.emb (ix2 r d)
      = ix2 (⟨1024 * (t.val / 5) + r.val, by have := r.isLt; omega⟩ : Fin 8192) d :=
    funext fun a => Fin.ext (by
      match a with
      | ⟨0, _⟩ => show win0_2.index t 0 * 1024 + 1 * r.val = 1024 * (t.val / 5) + r.val; rw [hi.2.2.2.2.1]; omega
      | ⟨1, _⟩ => show win0_2.index t 1 * 256 + 1 * d.val = d.val; rw [hi.2.2.2.2.2.1]; omega)
  rw [View.read_apply, he]
  rfl

/-- An index of the array is in point `t`'s block iff each coordinate is in the block's range on its axis. -/
theorem mem_blk (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v2).slice (win0_2.rect t)).set ↔ _
  rw [View.set_slice_whole, Rect.mem_set_unit]
  exact Iff.rfl

/-- Every row of the array is in the block of the last tile of its row block. -/
theorem cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  refine ⟨⟨5 * ((i 0).val / 1024) + 4, by rw [show cfg0.N = 40 from N_0]; omega⟩, ?_, ?_⟩
  · exact (flush0_2 _).mpr (by show (5 * ((i 0).val / 1024) + 4) % 5 = 4; omega)
  · rw [mem_blk]
    have hf := idx_facts ⟨5 * ((i 0).val / 1024) + 4, by rw [show cfg0.N = 40 from N_0]; omega⟩
    have e0 := hf.2.2.2.2.1
    have e1 := hf.2.2.2.2.2.1
    intro a
    match a with
    | ⟨0, _⟩ =>
      show win0_2.index _ 0 * 1024 ≤ (i 0).val ∧ (i 0).val < win0_2.index _ 0 * 1024 + 1024
      rw [e0]; show (5 * ((i 0).val / 1024) + 4) / 5 * 1024 ≤ (i 0).val ∧ (i 0).val < (5 * ((i 0).val / 1024) + 4) / 5 * 1024 + 1024
      omega
    | ⟨1, _⟩ =>
      show win0_2.index _ 1 * 256 ≤ (i 1).val ∧ (i 1).val < win0_2.index _ 1 * 256 + 256
      rw [e1]; omega

/-- The kernel's output array ends as the flattened lookup. -/
theorem final (c : Dev nD) : (dats m 0 c).arrAt 2 cfg0.N = flatOf m c :=
  (dats m 0 c).arrAt_eq_of_cover 2 (flatOf m c) (flushed_eq m c) cover

/-- The re-laid result is the lookup of the arguments. -/
theorem tail_eq (c : Dev nD) :
    Pipeline.afterTail₀ cfgs (dats m) 0 (V0 m) [hostOps1] c main_v3
      = lookup (m ((c : Thread nD τ).loc main_arg0)) (m ((c : Thread nD τ).loc main_arg1)) := by
  unfold Pipeline.afterTail₀
  show StableHlo.after hostOps1 _ (Proc.devRef .tc main_v3) = _
  after_results
  funext i
  obtain ⟨b, s, d, rfl⟩ : ∃ (b : Fin 128) (s : Fin 64) (d : Fin 256), i = ix3 b s d := ⟨i 0, i 1, i 2, eq_ix3 i⟩
  have hb := b.isLt
  have hs := s.isLt
  show shapeCast S128x64x256 (Pipeline.withArrays spec0 c (V0 m c) (fun w => (dats m 0 c).arrAt w cfg0.N)
    (Proc.devRef .tc main_v2)) shapeCasts_S8192x256_S128x64x256 (ix3 b s d) = _
  rw [show Pipeline.withArrays spec0 c (V0 m c) (fun w => (dats m 0 c).arrAt w cfg0.N) (Proc.devRef .tc main_v2) = flatOf m c from
    (Pipeline.withArrays_arr spec0 launch0.win.arr_inj c _ _ 2).trans (final m c)]
  rw [shapeCast_apply _ _ _ (ix2 (⟨64 * b.val + s.val, by omega⟩ : Fin 8192) d) (by
    rw [Shape.rowMajor_val_two, Shape.rowMajor_val_three]
    show (64 * b.val + s.val) * 256 + d.val = (b.val * 64 + s.val) * 256 + d.val
    omega)]
  show row _ d (idAt (V m c main_v0 : S8192x1.Idx → BitVec 32) (64 * b.val + s.val)) = row _ d _
  rw [idAt_of_lt _ _ (by omega), V_ids m c,
    shapeCast_apply _ _ _ (ix2 b s) (by
      rw [Shape.rowMajor_val_two, Shape.rowMajor_val_two]
      show b.val * 64 + s.val = (64 * b.val + s.val) * 1 + 0
      omega)]

/-- The kernel's run, read: the result is the lookup of the arguments, which end unchanged. -/
theorem run : θ_run defs (onTc (τ := τ) (main (F := Ideal))) ⟨m, fun _ => 0, ρ⟩ fun r => ∀ c : Dev nD,
      r.2.mem ((c.tc : Thread nD τ).loc main_v3)
        = lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefLookup.lean ====
/-
  The reference is the lookup.

  The reference builds the whole 128 × 64 × 10001 one-hot array `[ids (b, s) = v]` and contracts its last axis against
  the table's rows. At entry `(b, s, d)` that is the sum over the table's 10001 rows of the one-hot entry times
  `W (v, d)`: the row the id names, or zero when it names none.
-/
import proofs.«135085_j68513318306322_1_alg».proof.Proof.Gen.ReferenceIdeal.Read
import proofs.«135085_j68513318306322_1_alg».proof.Proof.Spec

noncomputable section

open Idealize.ShloMosaic Idealize.ShloMosaic.ValueIdx

namespace Cert.ReferenceIdeal.RefLookup

open Cert.ReferenceIdeal Cert.ReferenceIdeal.Read Cert.Embed

/-- Entry `(b, s, v)` of the one-hot array: one exactly when the id at `(b, s)`, read unsigned, is `v`. -/
theorem onehot_entry (ids : S128x64.Idx → BitVec 32) (b : Fin 128) (s : Fin 64) (d : Fin 256) (k : Fin 10001) :
    val_main_v0 (F := Ideal) ids (lidx_main_v1 (ix3 b s d) k)
      = if (ids (ix2 b s)).toNat = 0 + k.val then (1 : EReal) else 0 := by
  have e0 : idx_main_call0_v0 (idx_main_call0_v2 (lidx_main_v1 (ix3 b s d) k)) = ix2 b s :=
    funext fun a => Fin.ext (by match a with | ⟨0, _⟩ => rfl | ⟨1, _⟩ => rfl)
  rw [val_main_v0_apply, val_main_call0_v4_apply, val_main_call0_v2_apply, val_main_call0_v0_apply,
    val_main_call0_v3_apply, val_main_call0_v1_apply, e0]
  show (((IntOp.cmpi .eq (ids (ix2 b s)) (BitVec.ofNat 32 k.val)).toNat : ℝ) : EReal) = _
  rw [onehot_unsigned]
  exact if_congr ((eq_ofNat_iff _ _ (by have := k.isLt; omega)).trans (by rw [Nat.zero_add])) rfl rfl

/-- The reference's result is the lookup. -/
theorem ref_eq (ids : S128x64.Idx → BitVec 32) (W : S10001x256.Idx → EReal) :
    val_main_v1 (F := Ideal) ids W = lookup ids W := by
  funext i
  obtain ⟨b, s, d, rfl⟩ : ∃ (b : Fin 128) (s : Fin 64) (d : Fin 256), i = ix3 b s d := ⟨i 0, i 1, i 2, eq_ix3 i⟩
  rw [val_main_v1_apply]
  have e : ∀ k : Fin 10001, val_main_v0 (F := Ideal) ids (lidx_main_v1 (ix3 b s d) k) * W (ridx_main_v1 (ix3 b s d) k)
      = (if (ids (ix2 b s)).toNat = 0 + k.val then (1 : EReal) else 0) * row W d (0 + k.val) := fun k => by
    rw [onehot_entry, row_of_lt W d (0 + k.val) (by have := k.isLt; omega)]
    refine congrArg (_ * W ·) (funext fun a => Fin.ext (by
      match a with
      | ⟨0, _⟩ => show k.val = 0 + k.val; omega
      | ⟨1, _⟩ => rfl))
  rw [Finset.sum_congr rfl (fun k _ => e k), sum_onehot 10001 0 _ (row W d)]
  show _ = row W d (ids (ix2 b s)).toNat
  by_cases h : (ids (ix2 b s)).toNat < 0 + 10001
  · rw [if_pos ⟨Nat.zero_le _, h⟩]
  · rw [if_neg (fun hh => h hh.2), row_of_ge W d _ (by omega)]

end Cert.ReferenceIdeal.RefLookup

end
-- ==== Proof.lean ====
/-
  An embedding lookup computed two ways, equal over the extended reals.

  Both programs take a 128 × 64 array of token ids and a table `W` of 10001 rows and 256 columns, and return the
  128 × 64 × 256 array whose entry `(b, s, d)` is `W (ids (b, s), d)` — zero when the id names no row.
  The reference builds the whole one-hot array `[ids (b, s) = v]` and contracts it against the table. The kernel
  flattens the ids to a column of 8192, extends the table with zero rows to 10240, and for each block of 1024 ids walks
  five tiles of 2048 candidate rows, adding each tile's one-hot product to a running block; after the fifth tile the
  running block is written out, and the result is re-laid as 128 × 64 × 256.
  In a one-hot sum at most one term is kept, and over the extended reals `0 * x = 0` whatever `x` is, so both sums
  are the selected entry of the table (`Cert.Embed.sum_onehot`); the kernel's five partial sums select among a growing
  range of candidate rows (`Cert.Embed.select_step`), and the zero rows beyond the table select zero, as an id naming no
  row does. No entry of the table needs to be finite for this.
  The three programs' runs are the generated ones; the idealized kernel is the kernel's own text read at the exact
  values, with nothing rewritten.
-/
import proofs.«135085_j68513318306322_1_alg».proof.Defs
import proofs.«135085_j68513318306322_1_alg».proof.Proof.Gen.Kernel
import proofs.«135085_j68513318306322_1_alg».proof.Proof.Gen.Kernel.Skeleton
import proofs.«135085_j68513318306322_1_alg».proof.Proof.Gen.Kernel.Launch
import proofs.«135085_j68513318306322_1_alg».proof.Proof.Gen.Kernel.Points
import proofs.«135085_j68513318306322_1_alg».proof.Proof.Gen.Kernel.Frame
import proofs.«135085_j68513318306322_1_alg».proof.Proof.Gen.KernelIdeal
import proofs.«135085_j68513318306322_1_alg».proof.Proof.Gen.KernelIdeal.Skeleton
import proofs.«135085_j68513318306322_1_alg».proof.Proof.Gen.KernelIdeal.Launch
import proofs.«135085_j68513318306322_1_alg».proof.Proof.Gen.KernelIdeal.Points
import proofs.«135085_j68513318306322_1_alg».proof.Proof.Gen.KernelIdeal.Frame
import proofs.«135085_j68513318306322_1_alg».proof.Proof.Gen.ReferenceIdeal
import proofs.«135085_j68513318306322_1_alg».proof.Proof.Gen.Pre_finite_inputs
import proofs.«135085_j68513318306322_1_alg».proof.Proof.Gen.ReferenceIdeal.Run
import proofs.«135085_j68513318306322_1_alg».proof.Proof.Gen.ReferenceIdeal.Read
import proofs.«135085_j68513318306322_1_alg».proof.Proof.Final
import proofs.«135085_j68513318306322_1_alg».proof.Proof.RefLookup
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in reading the kernel at the exact values. -/
theorem preserves : Cert.preserves_Kernel_KernelIdeal := trivial

/-- From arguments that agree, the kernel and the reference both end at the lookup of the arguments. -/
theorem algebraic : Cert.algebraic_KernelIdeal_ReferenceIdeal := by
  intro m ρ m' ρ' _ hagree
  refine ⟨fun c => Cert.Embed.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefLookup.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
